-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x2048 : Shape := ⟨3, ![8, 8192, 2048]⟩
abbrev S_ : Shape := ⟨0, ![]⟩

class Facts : Prop where
  bcast_S_S8x8192x2048 : S_.BroadcastsInDim S8x8192x2048 (![] : Fin 0 → Fin S8x8192x2048.rank)
  reducesTo_S8x8192x2048_S_d0_1_2 : S8x8192x2048.ReducesTo [0, 1, 2] S_
  h_S_ : 0 < S_.numel

variable [Facts]

def fn {F : FTy → Type} [FloatOps F] (main_arg0 : FVec F S8x8192x2048 .f32) : IVec S_ 1 :=
  let main_v0 : FVec F S8x8192x2048 .f32 := Host.absf main_arg0
  let main_cst : FVec F S_ .f32 := constant S_ .f32 0x7F800000#32
  let main_v1 : FVec F S8x8192x2048 .f32 := broadcastInDim S8x8192x2048 ![] bcast_S_S8x8192x2048 main_cst
  let main_v2 : IVec S8x8192x2048 1 := cmpf .olt main_v0 main_v1
  let main_c : IVec S_ 1 := constantI S_ 1 1#1
  let main_v3 : IVec S_ 1 := (fun x v => Host.reduce IntOp.andi x v reducesTo_S8x8192x2048_S_d0_1_2 h_S_) main_v2 main_c
  main_v3
-- ==== Kernel.lean ====
abbrev S8x8192x2048 : Shape := ⟨3, ![8, 8192, 2048]⟩
abbrev S1x512x2048 : Shape := ⟨3, ![1, 512, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x8192x2048, .f32⟩
  | .hbm, ⟨1, _⟩ => ⟨S8x8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | _, _ => ⟨S8x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x512x2048_S1x512x2048_0_0_0 : ∀ a, (![0, 0, 0] : Fin 3 → Nat) a + S1x512x2048.size a ≤ S1x512x2048.size a
  h_S1x512x2048 : 0 < S1x512x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x8192x2048.size a
  hwx0_0 : ∀ i : grid0.Coords, EltTy.bits .f32 = 32 ∨ (Rect.block (s := S8x8192x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S8x8192x2048.size a
  hwx0_1 : ∀ i : grid0.Coords, EltTy.bits .f32 = 32 ∨ (Rect.block (s := S8x8192x2048) S1x512x2048.size (cc0_transform_1 i) (hinb0_1 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S8x8192x2048 : Shape := ⟨3, ![8, 8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8x8192x2048, .f32⟩
  | .hbm, ⟨1, _⟩ => ⟨S8x8192x2048, .f32⟩
  | .hbm, ⟨2, _⟩ => ⟨S8x8192x2048, .f32⟩
  | .hbm, ⟨3, _⟩ => ⟨S_, .f32⟩
  | .hbm, ⟨4, _⟩ => ⟨S8x8192x2048, .f32⟩
  | .hbm, ⟨5, _⟩ => ⟨S8x8192x2048, .f32⟩
  | .hbm, ⟨6, _⟩ => ⟨S_, .f32⟩
  | .hbm, ⟨7, _⟩ => ⟨S8x8192x2048, .f32⟩
  | .hbm, ⟨8, _⟩ => ⟨S8x8192x2048, .f32⟩
  | .hbm, ⟨9, _⟩ => ⟨S8x8192x2048, .f32⟩
  | _, _ => ⟨S8x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S_S8x8192x2048 : S_.BroadcastsInDim S8x8192x2048 (![] : Fin 0 → Fin S8x8192x2048.rank)

variable [Facts₀]

class Facts : Prop extends Facts₀ where

variable [Facts]
-- ==== Proof.Silu.lean ====
/-
  x · σ(x): each element of an array of shape [8, 8192, 2048] multiplied by the logistic function of itself.

  One side applies the single operation "logistic" to an element and multiplies by the element. The other side spells
  the logistic function out: negate, exponentiate, add the constant one, divide the constant one by that sum, and
  multiply by the element. On the extended reals the logistic function IS that quotient, 1 / (1 + e^(−a)), at every
  point by definition: at −∞ the exponential is +∞ and the quotient is 0; at +∞ the exponential is 0 and the quotient
  is 1. So the two arrays are the same function of the argument array, element by element, and nothing has to be
  assumed about the elements (no finiteness, no algebraic law beyond unfolding both sides). The one arithmetic fact
  used is that the single-precision word 0x3F800000 denotes the number one.
-/
import proofs.«121735_j23407571764130_2_alg».proof.Proof.Gen.KernelIdeal.Value
import proofs.«121735_j23407571764130_2_alg».proof.Proof.Gen.ReferenceIdeal.Run
import Idealize.ShloMosaic.Lib.IdealHost

noncomputable section

open Idealize.ShloMosaic Idealize.ShloMosaic.TcCoe

namespace Cert.Silu

open Cert.ReferenceIdeal Cert.ReferenceIdeal.Gen

/-- The logistic function of an extended real is one divided by one plus the exponential of the negated argument. -/
theorem logistic_eq_quotient (a : EReal) : Ideal.logistic a = Ideal.div 1 (1 + Ideal.exp (-a)) := rfl

/-- Element by element, x · (1 / (1 + e^(−x))) with the quotient spelled in four operations is x · logistic x: the
    constant broadcast to the array's shape reads one everywhere, and the quotient is the logistic function's definition. -/
theorem gate_eq (x : FVec Ideal S8x8192x2048 .f32) :
    mulf x (Host.divf (broadcastInDim S8x8192x2048 ![] bcast_S_S8x8192x2048 (constant S_ .f32 0x3F800000#32))
      (addf (broadcastInDim S8x8192x2048 ![] bcast_S_S8x8192x2048 (constant S_ .f32 0x3F800000#32)) (Host.exp (Host.negf x))))
    = Cert.KernelIdeal.Value.G1 (F := Ideal) x := by
  funext i
  simp only [Cert.KernelIdeal.Value.G1, mulf, Host.divf, addf, Host.exp, Host.negf, broadcastInDim, constant,
    Ideal.mulf_def, Ideal.hostDivf_def, Ideal.addf_def, Ideal.hostUnary_exp_def, Ideal.hostNegf_def, Ideal.negf_def,
    Ideal.logistic_def, Ideal.ofBits_def, Ideal.ofBits_one_f32, logistic_eq_quotient]

end Cert.Silu

end
-- ==== Proof.lean ====
/-
  x · σ(x) over an array of shape [8, 8192, 2048], computed block by block (one block is a [1, 512, 2048] slab, and the
  8 × 16 slabs tile the array), against the same product computed on the whole array with the logistic function spelled
  out as 1 / (1 + e^(−x)).

  Each entry of the result depends only on the entry of the argument at the same index, so the tiling does not enter
  the mathematics: the blockwise run ends with the array holding x · logistic x at every index, the whole-array run ends
  with x · (1 / (1 + e^(−x))), and on the extended reals the logistic function is that quotient by definition at every
  point, the two infinities included (Proof/Silu.lean). Nothing is assumed of the argument's entries for the equality;
  each program leaves its argument array as it found it.
-/
import proofs.«121735_j23407571764130_2_alg».proof.Defs
import proofs.«121735_j23407571764130_2_alg».proof.Proof.Gen.Kernel.Frame
import proofs.«121735_j23407571764130_2_alg».proof.Proof.Gen.KernelIdeal.Value
import proofs.«121735_j23407571764130_2_alg».proof.Proof.Gen.Pre_finite_inputs
import proofs.«121735_j23407571764130_2_alg».proof.Proof.Gen.ReferenceIdeal.Run
import proofs.«121735_j23407571764130_2_alg».proof.Proof.Silu
import Idealize.ShloMosaic.Adequacy
import Idealize.ShloMosaic.Init

noncomputable section

namespace Cert.Proof

open Idealize.ShloMosaic Idealize.SL.Sem

/-- The blockwise program over the extended reals terminates without a fault and leaves its argument unchanged: its
    run with the result array read, the result forgotten. -/
theorem frame_KernelIdeal : frame_KernelIdeal := fun m ρ _ =>
  (θ_run Cert.KernelIdeal.defs _ _).mono (fun _ h c => (h c).2) (Cert.KernelIdeal.Value.run (F := Ideal) m ρ)

/-- The whole-array program likewise: its run with the result read, the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the argument array, the blockwise run ends with x · logistic x and the whole-array run
    with x · (1 / (1 + e^(−x))) of the same x: one function, entry by entry. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact Cert.Silu.gate_eq _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
